-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S32x2048x64 : Shape := ⟨3, ![32, 2048, 64]⟩
abbrev S32x2048x2048 : Shape := ⟨3, ![32, 2048, 2048]⟩
abbrev S1x1024x64 : Shape := ⟨3, ![1, 1024, 64]⟩
abbrev S1x2048x64 : Shape := ⟨3, ![1, 2048, 64]⟩
abbrev S1x1024x2048 : Shape := ⟨3, ![1, 1024, 2048]⟩
abbrev S1024x64 : Shape := ⟨2, ![1024, 64]⟩
abbrev S2048x64 : Shape := ⟨2, ![2048, 64]⟩
abbrev S64x2048 : Shape := ⟨2, ![64, 2048]⟩
abbrev S1024x2048 : Shape := ⟨2, ![1024, 2048]⟩
abbrev S1024 : Shape := ⟨1, ![1024]⟩
abbrev S1024x1 : Shape := ⟨2, ![1024, 1]⟩
abbrev S2x16x2048x2048 : Shape := ⟨4, ![2, 16, 2048, 2048]⟩

abbrev nBuf : Space → Nat
  | .hbm => 10
  | .vmem => 10
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S32x2048x64, .f32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S32x2048x2048, .f32⟩
  | .hbm, ⟨8, _⟩ => ⟨S2x16x2048x64, .f32⟩
  | .hbm, ⟨9, _⟩ => ⟨S2x16x2048x2048, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x64, .f32⟩
  | .local _ .vmem, ⟨7, _⟩ => ⟨S1x1024x64, .f32⟩
  | .local _ .vmem, ⟨8, _⟩ => ⟨S1x1024x2048, .f32⟩
  | .local _ .vmem, ⟨9, _⟩ => ⟨S1x1024x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x16x2048x64_S32x2048x64 : S2x16x2048x64.ShapeCasts S32x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  reduces_S1024x2048_S1024 : S1024x2048.Reduces [1] S1024
  shapeCasts_S1024_S1024x1 : S1024.ShapeCasts S1024x1
  broadcasts_S1024x1_S1024x2048 : S1024x1.Broadcasts S1024x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  shapeCasts_S1024x64_S1x1024x64 : S1024x64.ShapeCasts S1x1024x64
  shapeCasts_S32x2048x64_S2x16x2048x64 : S32x2048x64.ShapeCasts S2x16x2048x64
  shapeCasts_S32x2048x2048_S2x16x2048x2048 : S32x2048x2048.ShapeCasts S2x16x2048x2048
  dot_S1024x64_S64x2048_S1024x2048_1_0_0_1_n_n_wf : DotDims.WF S1024x64 S64x2048 S1024x2048 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x2048x64.size a
  hwx0_0 : ∀ i : grid0.Coords, EltTy.bits .f32 = 32 ∨ (Rect.block (s := S32x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S32x2048x64.size a
  hwx0_3 : ∀ i : grid0.Coords, EltTy.bits .f32 = 32 ∨ (Rect.block (s := S32x2048x64) S1x1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x2048.size a ≤ S32x2048x2048.size a
  hwx0_4 : ∀ i : grid0.Coords, EltTy.bits .f32 = 32 ∨ (Rect.block (s := S32x2048x2048) S1x1024x2048.size (cc0_transform_4 i) (hinb0_4 i)).WholeWords (EltTy.packing .f32)

variable [Facts₀]

def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .f32⟩
  | .hbm, ⟨4, _⟩ => ⟨S_, .f32⟩
  | .hbm, ⟨5, _⟩ => ⟨S2x16x2048x2048, .f32⟩
  | .hbm, ⟨6, _⟩ => ⟨S2x16x2048x2048, .f32⟩
  | .hbm, ⟨7, _⟩ => ⟨S_, .f32⟩
  | .hbm, ⟨8, _⟩ => ⟨S2x16x2048, .f32⟩
  | .hbm, ⟨9, _⟩ => ⟨S_, .f32⟩
  | .hbm, ⟨10, _⟩ => ⟨S2x16x2048, .f32⟩
  | .hbm, ⟨11, _⟩ => ⟨S2x16x2048, .f32⟩
  | .hbm, ⟨12, _⟩ => ⟨S2x16x2048x1, .f32⟩
  | .hbm, ⟨13, _⟩ => ⟨S2x16x2048x2048, .f32⟩
  | .hbm, ⟨14, _⟩ => ⟨S2x16x2048x2048, .f32⟩
  | .hbm, ⟨15, _⟩ => ⟨S2x16x2048x2048, .f32⟩
  | .hbm, ⟨16, _⟩ => ⟨S_, .f32⟩
  | .hbm, ⟨17, _⟩ => ⟨S2x16x2048, .f32⟩
  | .hbm, ⟨18, _⟩ => ⟨S2x16x2048x1, .f32⟩
  | .hbm, ⟨19, _⟩ => ⟨S2x16x2048x2048, .f32⟩
  | .hbm, ⟨20, _⟩ => ⟨S2x16x2048x2048, .f32⟩
  | .hbm, ⟨21, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.RowSoftmax.lean ====
/-
  Scaled dot-product attention, one query row at a time, on the extended reals.

  For a query row `a : Fin D → EReal` and key rows `b j : Fin D → EReal` the scores are the inner products with the
  scale 1/8 (the float 0.125, exactly) put either on the query before the product or on the product afterwards.  On the
  extended reals a nonnegative real factor moves across a finite sum whatever the summands are, infinite ones included, so
  the two spellings are one row of scores (`scaledScore_eq`) and nothing has to be assumed finite.  From a row of
  scores `s` the attention weights are `exp (s j - max s) / Σ exp (s j' - max s)` (`weight`), the maximum taken as a fold of
  `max` from the float -∞, and the output row is the weights' sum against the value rows.
-/
import Idealize.ShloMosaic.PureOps.Ideal
import Idealize.ShloMosaic.PureOps.Ideal.Laws

noncomputable section

namespace Cert.Attention

open Idealize.ShloMosaic

/-- The float `0.125`: the scale `1 / sqrt 64`. -/
abbrev scale : EReal := Ideal.ofBits .f32 0x3E000000#32

/-- The float `-∞`, which both maxima start from. -/
abbrev floor : EReal := Ideal.ofBits .f32 0xFF800000#32

/-- The scale's pattern denotes the real `1/8`. -/
theorem scale_eq : scale = ((1 / 8 : ℝ) : EReal) := by
  simp [scale, Ideal.ofBits, Ideal.ieee, -EReal.coe_mul]; norm_num

theorem scale_nonneg : (0 : EReal) ≤ scale := by
  rw [scale_eq]; exact EReal.coe_nonneg.mpr (by norm_num)

theorem scale_ne_top : scale ≠ ⊤ := by
  rw [scale_eq]; exact EReal.coe_ne_top _

/-- A nonnegative real factor moves across a finite sum of extended reals. -/
theorem sum_mul_scale {ι : Type} (t : Finset ι) (x : ι → EReal) :
    ∑ d ∈ t, x d * scale = (∑ d ∈ t, x d) * scale := by
  classical
  induction t using Finset.induction_on with
  | empty => simp
  | insert a t ha ih =>
    rw [Finset.sum_insert ha, Finset.sum_insert ha, ih,
      EReal.right_distrib_of_nonneg_of_ne_top scale_nonneg scale_ne_top]

/-- Scaling the query before the inner product, or the inner product afterwards: one score. -/
theorem scaledScore_eq {D : ℕ} (a b : Fin D → EReal) :
    ∑ d : Fin D, a d * scale * b d = (∑ d : Fin D, a d * b d) * scale := by
  rw [← sum_mul_scale]
  exact Finset.sum_congr rfl fun d _ => mul_right_comm (a d) scale (b d)

variable {n : ℕ}

/-- A row's maximum: the fold of `max` from the float -∞. -/
def rowMax (s : Fin n → EReal) : EReal := (Finset.univ : Finset (Fin n)).fold max floor s

/-- A maximum taken once more against the value it started from is unchanged. -/
theorem max_floor_rowMax (s : Fin n → EReal) : max floor (rowMax s) = rowMax s :=
  max_eq_right ((Finset.le_fold_max floor).mpr (Or.inl le_rfl))

/-- The shifted exponential of a row's entry. -/
def rowExp (s : Fin n → EReal) (j : Fin n) : EReal := Ideal.exp (s j - rowMax s)

/-- The attention weight of key `j` in a row of scores. -/
def weight (s : Fin n → EReal) (j : Fin n) : EReal := Ideal.div (rowExp s j) (∑ j' : Fin n, rowExp s j')

/-- The output entry: the weights against one column of the value rows. -/
def mix (s : Fin n → EReal) (v : Fin n → EReal) : EReal := ∑ j : Fin n, weight s j * v j

end Cert.Attention

end
-- ==== Proof.LibKeepdims.lean ====
/-
  Row reductions that keep their axis, read at an index.

  A kernel's `jnp.max(x, axis=-1, keepdims=True)` or `jnp.sum(…, keepdims=True)` on an `[a, b]` array prints as a lane
  reduction to `[a]`, a shape cast to the column `[a, 1]` and a broadcast of the column back to `[a, b]`.  Read at
  `(r, c)` each step names one index of its operand: the broadcast reads the column at `(r, 0)`, the cast reads the vector
  at `r`, and the reduction at `r` runs over the row `k ↦ (r, k)` — as a fold of `max` from the accumulator's value for a
  maximum, as a plain sum for an addition.  All at any extents `a`, `b` and any float format; the indices are written by
  coordinates (`ix1`, `ix2`), so each lemma applies to a printed operation by unification.
-/
import Idealize.ShloMosaic.Lib.ValueLayout
import Idealize.ShloMosaic.PureOps.Ideal.Laws

namespace Idealize.ShloMosaic.ValueIdx

open Idealize.ShloMosaic

variable {α : Type}

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Over a reduction of `[a, b]` along its last axis, the source index above `r` with `k` on the dropped axis is `(r, k)`. -/
theorem lift_row {a b : ℕ} (h : (⟨2, ![a, b]⟩ : Shape).Reduces [(1 : Fin 2)] ⟨1, ![a]⟩) (r : Fin a) (k : Fin b) :
    h.lift (ix1 r) k = ix2 r k :=
  funext fun c => Fin.ext (by match c with | ⟨0, _⟩ => rfl | ⟨1, _⟩ => rfl)

variable {φ : FTy}

/-- A lane maximum of an `[a, b]` array at row `r`, at the exact values: the fold of `max` from the accumulator's value over the row. -/
theorem multiReduction_maximumf_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (r : Fin a) :
    multiReduction .maximumf [(1 : Fin 2)] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (Finset.fold max (Ideal.ofBits φ acc) · (Finset.univ : Finset (Fin b))) (funext fun k => congrArg src (lift_row h r k))

/-- A lane sum of an `[a, b]` array at row `r`, at the exact values: the sum over the row. -/
theorem multiReduction_add_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (r : Fin a) :
    multiReduction .add [(1 : Fin 2)] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end Idealize.ShloMosaic.ValueIdx
-- ==== Proof.BlockPayload.lean ====
/-
  What one grid point computes, index by index.

  At a grid point the body loads a block of 1024 query rows `x0`, the head's 2048 key rows `x1` and its 2048 value rows
  `x2`.  Its scores matrix at `(r, j)` is the inner product of query row `r`, scaled, with key row `j` (`scoresBlock_apply`: the
  key block is transposed and the product taken into a zero accumulator).  Row by row it then takes the maximum, the shifted
  exponentials, their sum and the quotient, each reduction kept as a column and broadcast back: at `(r, j)` that is the
  attention weight of key `j` in row `r` of the scores (`softmaxBlock_apply`).  The weights are stored as they are, and their
  product with the value block, again into a zero accumulator, is at `(r, d)` the weights of row `r` against column `d` of the
  value rows (`pay3_apply`).
-/
import proofs.«157483_j78683800863253_2_alg».proof.Proof.Gen.KernelIdeal.Skeleton
import proofs.«157483_j78683800863253_2_alg».proof.Proof.RowSoftmax
import proofs.«157483_j78683800863253_2_alg».proof.Proof.LibKeepdims
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx Cert.Attention

/-! ## The body's values in one vocabulary -/

/-- The scores of a block of query rows against the head's key rows: `(x0 · 1/8) · x1ᵀ` into a zero accumulator. -/
def scoresBlock (x0 : Vec Ideal S1x1024x64 .f32) (x1 : Vec Ideal S1x2048x64 .f32) : FVec Ideal S1024x2048 .f32 :=
  matmul dot_S1024x64_S64x2048_S1024x2048_1_0_0_1_n_n (some .fp32)
    (mulf (shapeCast S1024x64 x0 shapeCasts_S1x1024x64_S1024x64 : FVec Ideal S1024x64 .f32) (broadcast S1024x64 (Scalar.ofBits .f32 0x3E000000#32)))
    (transpose S64x2048 [1, 0] (shapeCast S2048x64 x1 shapeCasts_S1x2048x64_S2048x64 : FVec Ideal S2048x64 .f32) transposes_S2048x64_p1_0_S64x2048 : FVec Ideal S64x2048 .f32)
    (constant (F := Ideal) S1024x2048 .f32 0x00000000#32)

/-- A matrix's row maxima, kept as a column and broadcast back over the rows. -/
def rowMaxBlock (v : FVec Ideal S1024x2048 .f32) : FVec Ideal S1024x2048 .f32 :=
  broadcastTo S1024x2048 (shapeCast S1024x1 (multiReduction .maximumf [1] S1024 v 0xFF800000#32 reduces_S1024x2048_S1024 (.inl rfl) rfl)
    shapeCasts_S1024_S1024x1) broadcasts_S1024x1_S1024x2048

/-- A matrix's row sums, kept as a column and broadcast back over the rows. -/
def rowSumBlock (v : FVec Ideal S1024x2048 .f32) : FVec Ideal S1024x2048 .f32 :=
  broadcastTo S1024x2048 (shapeCast S1024x1 (multiReduction .add [1] S1024 v 0x00000000#32 reduces_S1024x2048_S1024 (.inl rfl) rfl)
    shapeCasts_S1024_S1024x1) broadcasts_S1024x1_S1024x2048

/-- The shifted exponentials of a matrix of scores. -/
def expBlock (v : FVec Ideal S1024x2048 .f32) : FVec Ideal S1024x2048 .f32 := exp (subf v (rowMaxBlock v))

/-- The softmax of a matrix of scores along its rows. -/
def softmaxBlock (v : FVec Ideal S1024x2048 .f32) : FVec Ideal S1024x2048 .f32 := divf (expBlock v) (rowSumBlock (expBlock v))

/-- The body's weights are the softmax of its scores. -/
theorem pay1_eq (x0 : Vec Ideal S1x1024x64 .f32) (x1 : Vec Ideal S1x2048x64 .f32) :
    k0_pay1 (F := Ideal) x0 x1 = softmaxBlock (scoresBlock x0 x1) := rfl

/-! ## The two matrix products at an index -/

theorem qk_lhs0 (i : S1024x2048.Idx) (q : dot_S1024x64_S64x2048_S1024x2048_1_0_0_1_n_n.contr.Idx) : (dot_S1024x64_S64x2048_S1024x2048_1_0_0_1_n_n.lhsIdx i q 0).val = (i 0).val := by
  unfold DotDims.lhsIdx
  rw [dif_neg (show ¬(0 : Fin 2) ∈ dot_S1024x64_S64x2048_S1024x2048_1_0_0_1_n_n.lhsBatch by decide), dif_pos (show (0 : Fin 2) ∈ dot_S1024x64_S64x2048_S1024x2048_1_0_0_1_n_n.lhsNonContracting by decide)]
  rfl
theorem qk_lhs1 (i : S1024x2048.Idx) (q : dot_S1024x64_S64x2048_S1024x2048_1_0_0_1_n_n.contr.Idx) : (dot_S1024x64_S64x2048_S1024x2048_1_0_0_1_n_n.lhsIdx i q 1).val = (q ⟨0, by decide⟩).val :=
  dot_S1024x64_S64x2048_S1024x2048_1_0_0_1_n_n.lhsIdx_val_of_single rfl i q
theorem qk_rhs0 (i : S1024x2048.Idx) (q : dot_S1024x64_S64x2048_S1024x2048_1_0_0_1_n_n.contr.Idx) : (dot_S1024x64_S64x2048_S1024x2048_1_0_0_1_n_n.rhsIdx i q 0).val = (q ⟨0, by decide⟩).val :=
  dot_S1024x64_S64x2048_S1024x2048_1_0_0_1_n_n.rhsIdx_val_of_single rfl i q
theorem qk_rhs1 (i : S1024x2048.Idx) (q : dot_S1024x64_S64x2048_S1024x2048_1_0_0_1_n_n.contr.Idx) : (dot_S1024x64_S64x2048_S1024x2048_1_0_0_1_n_n.rhsIdx i q 1).val = (i 1).val := by
  unfold DotDims.rhsIdx
  rw [dif_neg (show ¬(1 : Fin 2) ∈ dot_S1024x64_S64x2048_S1024x2048_1_0_0_1_n_n.rhsBatch by decide), dif_pos (show (1 : Fin 2) ∈ dot_S1024x64_S64x2048_S1024x2048_1_0_0_1_n_n.rhsNonContracting by decide)]
  rfl

/-- A `[1024, 64] × [64, 2048]` product into a zero accumulator, at `(r, j)`: the sum over the 64 of the factors' products. -/
theorem qk_matmul_apply (l : FVec Ideal S1024x64 .f32) (t : FVec Ideal S64x2048 .f32) (r : Fin 1024) (j : Fin 2048) :
    matmul dot_S1024x64_S64x2048_S1024x2048_1_0_0_1_n_n (some .fp32) l t (constant (F := Ideal) S1024x2048 .f32 0x00000000#32) (ix2 r j)
      = ∑ d : Fin 64, l (ix2 r d) * t (ix2 d j) := by
  refine (Ideal.matmul_constant_zero_apply dot_S1024x64_S64x2048_S1024x2048_1_0_0_1_n_n (some .fp32) l t (ix2 r j)).trans ?_
  rw [← Equiv.sum_comp (contrEquiv1 dot_S1024x64_S64x2048_S1024x2048_1_0_0_1_n_n 64 rfl rfl).symm]
  refine Finset.sum_congr rfl fun k _ => ?_
  have hk := contrEquiv1_symm_val dot_S1024x64_S64x2048_S1024x2048_1_0_0_1_n_n 64 rfl rfl k
  have el : dot_S1024x64_S64x2048_S1024x2048_1_0_0_1_n_n.lhsIdx (ix2 r j) ((contrEquiv1 dot_S1024x64_S64x2048_S1024x2048_1_0_0_1_n_n 64 rfl rfl).symm k) = ix2 r k := funext fun a => Fin.ext (by
    match a with
    | ⟨0, _⟩ => exact qk_lhs0 _ _
    | ⟨1, _⟩ => exact (qk_lhs1 _ _).trans hk)
  have er : dot_S1024x64_S64x2048_S1024x2048_1_0_0_1_n_n.rhsIdx (ix2 r j) ((contrEquiv1 dot_S1024x64_S64x2048_S1024x2048_1_0_0_1_n_n 64 rfl rfl).symm k) = ix2 k j := funext fun a => Fin.ext (by
    match a with
    | ⟨0, _⟩ => exact (qk_rhs0 _ _).trans hk
    | ⟨1, _⟩ => exact qk_rhs1 _ _)
  rw [el, er]

theorem pv_lhs0 (i : S1024x64.Idx) (q : dot_S1024x2048_S2048x64_S1024x64_1_0_0_1_n_n.contr.Idx) : (dot_S1024x2048_S2048x64_S1024x64_1_0_0_1_n_n.lhsIdx i q 0).val = (i 0).val := by
  unfold DotDims.lhsIdx
  rw [dif_neg (show ¬(0 : Fin 2) ∈ dot_S1024x2048_S2048x64_S1024x64_1_0_0_1_n_n.lhsBatch by decide), dif_pos (show (0 : Fin 2) ∈ dot_S1024x2048_S2048x64_S1024x64_1_0_0_1_n_n.lhsNonContracting by decide)]
  rfl
theorem pv_lhs1 (i : S1024x64.Idx) (q : dot_S1024x2048_S2048x64_S1024x64_1_0_0_1_n_n.contr.Idx) : (dot_S1024x2048_S2048x64_S1024x64_1_0_0_1_n_n.lhsIdx i q 1).val = (q ⟨0, by decide⟩).val :=
  dot_S1024x2048_S2048x64_S1024x64_1_0_0_1_n_n.lhsIdx_val_of_single rfl i q
theorem pv_rhs0 (i : S1024x64.Idx) (q : dot_S1024x2048_S2048x64_S1024x64_1_0_0_1_n_n.contr.Idx) : (dot_S1024x2048_S2048x64_S1024x64_1_0_0_1_n_n.rhsIdx i q 0).val = (q ⟨0, by decide⟩).val :=
  dot_S1024x2048_S2048x64_S1024x64_1_0_0_1_n_n.rhsIdx_val_of_single rfl i q
theorem pv_rhs1 (i : S1024x64.Idx) (q : dot_S1024x2048_S2048x64_S1024x64_1_0_0_1_n_n.contr.Idx) : (dot_S1024x2048_S2048x64_S1024x64_1_0_0_1_n_n.rhsIdx i q 1).val = (i 1).val := by
  unfold DotDims.rhsIdx
  rw [dif_neg (show ¬(1 : Fin 2) ∈ dot_S1024x2048_S2048x64_S1024x64_1_0_0_1_n_n.rhsBatch by decide), dif_pos (show (1 : Fin 2) ∈ dot_S1024x2048_S2048x64_S1024x64_1_0_0_1_n_n.rhsNonContracting by decide)]
  rfl

/-- A `[1024, 2048] × [2048, 64]` product into a zero accumulator, at `(r, d)`: the sum over the 2048 of the factors' products. -/
theorem pv_matmul_apply (l : FVec Ideal S1024x2048 .f32) (t : FVec Ideal S2048x64 .f32) (r : Fin 1024) (d : Fin 64) :
    matmul dot_S1024x2048_S2048x64_S1024x64_1_0_0_1_n_n (some .fp32) l t (constant (F := Ideal) S1024x64 .f32 0x00000000#32) (ix2 r d)
      = ∑ j : Fin 2048, l (ix2 r j) * t (ix2 j d) := by
  refine (Ideal.matmul_constant_zero_apply dot_S1024x2048_S2048x64_S1024x64_1_0_0_1_n_n (some .fp32) l t (ix2 r d)).trans ?_
  rw [← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx (ix2 r d) ((contrEquiv1 dot_S1024x2048_S2048x64_S1024x64_1_0_0_1_n_n 2048 rfl rfl).symm k) = ix2 r k := funext fun a => Fin.ext (by
    match a with
    | ⟨0, _⟩ => exact pv_lhs0 _ _
    | ⟨1, _⟩ => exact (pv_lhs1 _ _).trans hk)
  have er : dot_S1024x2048_S2048x64_S1024x64_1_0_0_1_n_n.rhsIdx (ix2 r d) ((contrEquiv1 dot_S1024x2048_S2048x64_S1024x64_1_0_0_1_n_n 2048 rfl rfl).symm k) = ix2 k d := funext fun a => Fin.ext (by
    match a with
    | ⟨0, _⟩ => exact (pv_rhs0 _ _).trans hk
    | ⟨1, _⟩ => exact pv_rhs1 _ _)
  rw [el, er]

/-! ## The scores and the softmax at an index -/

/-- Row `r` of the block's scores: query row `r`, scaled, against every key row. -/
def blockScores (x0 : Vec Ideal S1x1024x64 .f32) (x1 : Vec Ideal S1x2048x64 .f32) (r : Fin 1024) (j : Fin 2048) : EReal :=
  ∑ d : Fin 64, x0 (ix3 (0 : Fin 1) r d) * scale * x1 (ix3 (0 : Fin 1) j d)

theorem scoresBlock_apply (x0 : Vec Ideal S1x1024x64 .f32) (x1 : Vec Ideal S1x2048x64 .f32) (r : Fin 1024) (j : Fin 2048) :
    scoresBlock x0 x1 (ix2 r j) = blockScores x0 x1 r j := by
  unfold scoresBlock blockScores
  refine (qk_matmul_apply _ _ r j).trans (Finset.sum_congr rfl fun d _ => ?_)
  rw [mulf_apply, broadcast_apply, shapeCast_1ab_ab_apply, transpose_ix2_apply, shapeCast_1ab_ab_apply]
  rfl

theorem rowMaxBlock_apply (v : FVec Ideal S1024x2048 .f32) (r : Fin 1024) (j : Fin 2048) :
    rowMaxBlock v (ix2 r j) = rowMax (fun j' : Fin 2048 => v (ix2 r j')) := by
  unfold rowMaxBlock
  refine (broadcastTo_a1_ab_apply _ broadcasts_S1024x1_S1024x2048 r j).trans ?_
  refine (shapeCast_a_a1_apply _ shapeCasts_S1024_S1024x1 r (0 : Fin 1)).trans ?_
  exact multiReduction_maximumf_row v 0xFF800000#32 reduces_S1024x2048_S1024 (.inl rfl) rfl r

theorem rowSumBlock_apply (v : FVec Ideal S1024x2048 .f32) (r : Fin 1024) (j : Fin 2048) :
    rowSumBlock v (ix2 r j) = ∑ j' : Fin 2048, v (ix2 r j') := by
  unfold rowSumBlock
  refine (broadcastTo_a1_ab_apply _ broadcasts_S1024x1_S1024x2048 r j).trans ?_
  refine (shapeCast_a_a1_apply _ shapeCasts_S1024_S1024x1 r (0 : Fin 1)).trans ?_
  exact multiReduction_add_row v 0x00000000#32 reduces_S1024x2048_S1024 (.inl rfl) rfl r

theorem expBlock_apply (v : FVec Ideal S1024x2048 .f32) (r : Fin 1024) (j : Fin 2048) :
    expBlock v (ix2 r j) = rowExp (fun j' : Fin 2048 => v (ix2 r j')) j := by
  show Ideal.exp (v (ix2 r j) - rowMaxBlock v (ix2 r j)) = _
  rw [rowMaxBlock_apply]
  rfl

/-- The softmax of a matrix of scores, at `(r, j)`: the weight of key `j` in row `r`. -/
theorem softmaxBlock_apply (v : FVec Ideal S1024x2048 .f32) (r : Fin 1024) (j : Fin 2048) :
    softmaxBlock v (ix2 r j) = weight (fun j' : Fin 2048 => v (ix2 r j')) j := by
  show Ideal.div (expBlock v (ix2 r j)) (rowSumBlock (expBlock v) (ix2 r j)) = _
  rw [rowSumBlock_apply, expBlock_apply]
  unfold weight
  exact congrArg (Ideal.div _) (Finset.sum_congr rfl fun j' _ => expBlock_apply v r j')

/-- The body's weights at `(r, j)`. -/
theorem pay1_apply (x0 : Vec Ideal S1x1024x64 .f32) (x1 : Vec Ideal S1x2048x64 .f32) (r : Fin 1024) (j : Fin 2048) :
    k0_pay1 (F := Ideal) x0 x1 (ix2 r j) = weight (blockScores x0 x1 r) j := by
  rw [pay1_eq, softmaxBlock_apply]
  exact congrArg (weight · j) (funext fun j' => scoresBlock_apply x0 x1 r j')

/-! ## The two stored payloads at an index -/

/-- What the body stores into the weights' block, at `(u, r, j)`. -/
theorem pay2_apply (x0 : Vec Ideal S1x1024x64 .f32) (x1 : Vec Ideal S1x2048x64 .f32) (u : Fin 1) (r : Fin 1024) (j : Fin 2048) :
    k0_pay2 (F := Ideal) x0 x1 (ix3 u r j) = weight (blockScores x0 x1 r) j := by
  unfold k0_pay2
  refine (shapeCast_ab_1ab_apply _ shapeCasts_S1024x2048_S1x1024x2048 u r j).trans ?_
  exact pay1_apply x0 x1 r j

/-- What the body stores into the output's block, at `(u, r, d)`. -/
theorem pay3_apply (x0 : Vec Ideal S1x1024x64 .f32) (x1 x2 : Vec Ideal S1x2048x64 .f32) (u : Fin 1) (r : Fin 1024) (d : Fin 64) :
    k0_pay3 (F := Ideal) x0 x1 x2 (ix3 u r d) = mix (blockScores x0 x1 r) (fun j : Fin 2048 => x2 (ix3 (0 : Fin 1) j d)) := by
  unfold k0_pay3
  refine (shapeCast_ab_1ab_apply _ shapeCasts_S1024x64_S1x1024x64 u r d).trans ?_
  refine (pv_matmul_apply _ _ r d).trans ?_
  unfold mix
  refine Finset.sum_congr rfl fun j _ => ?_
  rw [pay1_apply, shapeCast_1ab_ab_apply]

end Cert.KernelIdeal.Block

end
-- ==== Proof.KernelArrays.lean ====
/-
  From the grid's blocks to the kernel's two arrays.

  The region works on the arguments regrouped as 32 heads, `[32, 2048, 64]`.  Grid point `(g, p)` — head `g`, half `p` of the
  query positions — loads query rows `1024 p … 1024 p + 1023` of head `g` and all the head's key and value rows, and writes
  back rows `1024 p …` of head `g` of both results.  So what it writes is the block at `(g, p)` of ONE function of the
  regrouped arrays: at `(g, i, j)` the weight of key `j` in the scores row of query `i` of head `g` (`headWeights`), and at
  `(g, i, d)` that row's weights against feature `d` of the head's value rows (`headOutput`).  The 64 blocks tile each
  result, so after the region the two arrays are those functions.
-/
import proofs.«157483_j78683800863253_2_alg».proof.Proof.Gen.KernelIdeal.Frame
import proofs.«157483_j78683800863253_2_alg».proof.Proof.BlockPayload
import Idealize.ShloMosaic.Lib.Pipeline.Value
import Idealize.ShloMosaic.Lib.Tactic

noncomputable section

namespace Cert.KernelIdeal.Arrays

open Cert.KernelIdeal Cert.KernelIdeal.Gen Cert.KernelIdeal.Block Idealize.ShloMosaic Idealize.ShloMosaic.TcCoe Idealize.SL.Sem
open Idealize.ShloMosaic.ValueIdx Cert.Attention
open Idealize.ShloMosaic.Pipeline (Dat)

/-! ## The results over the regrouped arrays -/

/-- Row `i` of head `g`'s scores, the scale on the query's entries. -/
def groupScores (Q K : S32x2048x64.Idx → EReal) (g : Fin 32) (i j : Fin 2048) : EReal :=
  ∑ d : Fin 64, Q (ix3 g i d) * scale * K (ix3 g j d)

/-- The weights array `[32, 2048, 2048]`. -/
def headWeights (Q K : S32x2048x64.Idx → EReal) : S32x2048x2048.Idx → EReal :=
  fun x => weight (groupScores Q K (x 0) (x 1)) (x 2)

/-- The output array `[32, 2048, 64]`. -/
def headOutput (Q K V : S32x2048x64.Idx → EReal) : S32x2048x64.Idx → EReal :=
  fun x => mix (groupScores Q K (x 0) (x 1)) (fun j : Fin 2048 => V (ix3 (x 0 : Fin 32) j (x 2 : Fin 64)))

theorem headWeights_apply (Q K : S32x2048x64.Idx → EReal) (g : Fin 32) (i j : Fin 2048) :
    headWeights Q K (ix3 g i j) = weight (groupScores Q K g i) j := rfl

theorem headOutput_apply (Q K V : S32x2048x64.Idx → EReal) (g : Fin 32) (i : Fin 2048) (d : Fin 64) :
    headOutput Q K V (ix3 g i d) = mix (groupScores Q K g i) (fun j : Fin 2048 => V (ix3 g j d)) := rfl

/-! ## One point's stores against the arrays, over plain variables -/

/-- A block's scores row is the arrays' row, when the loaded blocks are the arrays read at the matching rows. -/
theorem blockScores_eq (Q K : S32x2048x64.Idx → EReal) (x0 : Vec Ideal S1x1024x64 .f32) (x1 : Vec Ideal S1x2048x64 .f32)
    (r : Fin 1024) (g : Fin 32) (i : Fin 2048)
    (h0 : ∀ d : Fin 64, x0 (ix3 (0 : Fin 1) r d) = Q (ix3 g i d))
    (h1 : ∀ (j : Fin 2048) (d : Fin 64), x1 (ix3 (0 : Fin 1) j d) = K (ix3 g j d)) :
    blockScores x0 x1 r = groupScores Q K g i := by
  funext j
  unfold blockScores groupScores
  exact Finset.sum_congr rfl fun d _ => by rw [h0 d, h1 j d]

/-- The weights a point stores, at a block index `y`, are the weights array at the array index `e` the block puts `y` at. -/
theorem stored_weights (Q K : S32x2048x64.Idx → EReal) (x0 : Vec Ideal S1x1024x64 .f32) (x1 : Vec Ideal S1x2048x64 .f32)
    (y : S1x1024x2048.Idx) (e : S32x2048x2048.Idx)
    (h0 : ∀ d : Fin 64, x0 (ix3 (0 : Fin 1) (y 1) d) = Q (ix3 (e 0) (e 1) d))
    (h1 : ∀ (j : Fin 2048) (d : Fin 64), x1 (ix3 (0 : Fin 1) j d) = K (ix3 (e 0) j d))
    (h2 : (e 2).val = (y 2).val) :
    k0_pay2 (F := Ideal) x0 x1 y = headWeights Q K e := by
  obtain ⟨u, r, j, rfl⟩ : ∃ (u : Fin 1) (r : Fin 1024) (j : Fin 2048), y = ix3 u r j := ⟨y 0, y 1, y 2, eq_ix3 y⟩
  obtain ⟨g, i, j', rfl⟩ : ∃ (g : Fin 32) (i j' : Fin 2048), e = ix3 g i j' := ⟨e 0, e 1, e 2, eq_ix3 e⟩
  obtain rfl : j = j' := Fin.ext h2.symm
  rw [pay2_apply, headWeights_apply, blockScores_eq Q K x0 x1 r g i h0 h1]

/-- The output a point stores, at a block index `y`, is the output array at the array index `e` the block puts `y` at. -/
theorem stored_output (Q K V : S32x2048x64.Idx → EReal) (x0 : Vec Ideal S1x1024x64 .f32) (x1 x2 : Vec Ideal S1x2048x64 .f32)
    (y : S1x1024x64.Idx) (e : S32x2048x64.Idx)
    (h0 : ∀ d : Fin 64, x0 (ix3 (0 : Fin 1) (y 1) d) = Q (ix3 (e 0) (e 1) d))
    (h1 : ∀ (j : Fin 2048) (d : Fin 64), x1 (ix3 (0 : Fin 1) j d) = K (ix3 (e 0) j d))
    (h2 : ∀ (j : Fin 2048) (d : Fin 64), x2 (ix3 (0 : Fin 1) j d) = V (ix3 (e 0) j d))
    (h3 : (e 2).val = (y 2).val) :
    k0_pay3 (F := Ideal) x0 x1 x2 y = headOutput Q K V e := by
  obtain ⟨u, r, d, rfl⟩ : ∃ (u : Fin 1) (r : Fin 1024) (d : Fin 64), y = ix3 u r d := ⟨y 0, y 1, y 2, eq_ix3 y⟩
  obtain ⟨g, i, d', rfl⟩ : ∃ (g : Fin 32) (i : Fin 2048) (d' : Fin 64), e = ix3 g i d' := ⟨e 0, e 1, e 2, eq_ix3 e⟩
  obtain rfl : d = d' := Fin.ext h3.symm
  rw [pay3_apply, headOutput_apply, blockScores_eq Q K x0 x1 r g i h0 h1]
  exact congrArg (mix _) (funext fun j => h2 j d)

/-! ## What a point writes back -/

variable (m : (ℓ : Loc nD τ sig) → Buf (Elt Ideal) ℓ) (ρ : Dev nD → PrngReg)

theorem zero_offsets : (![0, 0, 0] : Fin 3 → Nat) = fun _ => 0 := funext fun a => by fin_cases a <;> rfl

/-- The printed index maps over the 64 points: the query block and both result blocks sit at block `(g, p, 0)`, the key and
    value blocks at `(g, 0, 0)`, with `g ≤ 31` and `p ≤ 1`. -/
theorem index_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3) ∧ win0_3.index t (2 : Fin 3) = 0
    ∧ win0_4.index t (0 : Fin 3) ≤ 31 ∧ win0_4.index t (1 : Fin 3) ≤ 1 ∧ win0_4.index t (2 : Fin 3) = 0 :=
  (by decide +kernel : ∀ t : Fin grid0.N, _)

/-- Every head and every half of the query positions is some point's. -/
theorem index_onto : ∀ (g : Fin 32) (p : Fin 2), ∃ t : Fin cfg0.N, win0_4.index t = ![g.val, p.val, 0] ∧ win0_3.index t = ![g.val, p.val, 0] :=
  (by decide +kernel : ∀ (g : Fin 32) (p : Fin 2), ∃ t : Fin grid0.N, win0_4.index t = ![g.val, p.val, 0] ∧ win0_3.index t = ![g.val, p.val, 0])

/-- What point `t` writes back to the weights array is block `t` of `headWeights` of the regrouped queries and keys. -/
theorem flushed_weights (c : Dev nD) (t : Fin cfg0.N) :
    (dats m 0 c).flushed 4 t = ((cfg0.win 4).blk t).view.read (Elt Ideal) (headWeights (V m c main_v0) (V m c main_v1)) := by
  show (cfg0.win 4).cut (grid0.coords t) ((dats m 0 c).after 4 t) = _
  rw [after0_4]
  unfold out0_4
  rw [View.canon_unit_zero zero_offsets]
  simp only [View.ld_unit_zero (S := S1x1024x64) zero_offsets, View.ld_unit_zero (S := S1x2048x64) zero_offsets]
  obtain ⟨a0, a1, a2, b0, b1, b2, c0, c1, c2, d0, d1, d2, e0, e1, e2⟩ := index_facts t
  funext y
  have hy0 : (y 0).val < 1 := (y 0).isLt
  show k0_pay2 (F := Ideal) (iblk m c 0 t) (iblk m c 1 t) y = headWeights (V m c main_v0) (V m c main_v1) (((cfg0.win 4).blk t).view.emb y)
  refine stored_weights (V m c main_v0) (V m c main_v1) (iblk m c 0 t) (iblk m c 1 t) y (((cfg0.win 4).blk t).view.emb y)
    (fun d => ?_) (fun j d => ?_) ?_
  · show V m c main_v0 (((cfg0.win 0).blk t).view.emb (ix3 (0 : Fin 1) (y 1) d)) = V m c main_v0 _
    refine congrArg (V m c main_v0) (funext fun a => Fin.ext ?_)
    match a with
    | ⟨0, _⟩ => show win0_0.index t (0 : Fin 3) * 1 + 1 * 0 = win0_4.index t (0 : Fin 3) * 1 + 1 * (y 0).val; omega
    | ⟨1, _⟩ => show win0_0.index t (1 : Fin 3) * 1024 + 1 * (y 1).val = win0_4.index t (1 : Fin 3) * 1024 + 1 * (y 1).val; omega
    | ⟨2, _⟩ => show win0_0.index t (2 : Fin 3) * 64 + 1 * d.val = d.val; omega
  · show V m c main_v1 (((cfg0.win 1).blk t).view.emb (ix3 (0 : Fin 1) j d)) = V m c main_v1 _
    refine congrArg (V m c main_v1) (funext fun a => Fin.ext ?_)
    match a with
    | ⟨0, _⟩ => show win0_1.index t (0 : Fin 3) * 1 + 1 * 0 = win0_4.index t (0 : Fin 3) * 1 + 1 * (y 0).val; omega
    | ⟨1, _⟩ => show win0_1.index t (1 : Fin 3) * 2048 + 1 * j.val = j.val; omega
    | ⟨2, _⟩ => show win0_1.index t (2 : Fin 3) * 64 + 1 * d.val = d.val; omega
  · show win0_4.index t (2 : Fin 3) * 2048 + 1 * (y 2).val = (y 2).val
    omega

/-- What point `t` writes back to the output array is block `t` of `headOutput` of the regrouped arguments. -/
theorem flushed_output (c : Dev nD) (t : Fin cfg0.N) :
    (dats m 0 c).flushed 3 t = ((cfg0.win 3).blk t).view.read (Elt Ideal) (headOutput (V m c main_v0) (V m c main_v1) (V m c main_v2)) := by
  show (cfg0.win 3).cut (grid0.coords t) ((dats m 0 c).after 3 t) = _
  rw [after0_3]
  unfold out0_3
  rw [View.canon_unit_zero zero_offsets]
  simp only [View.ld_unit_zero (S := S1x1024x64) zero_offsets, View.ld_unit_zero (S := S1x2048x64) zero_offsets]
  obtain ⟨a0, a1, a2, b0, b1, b2, c0, c1, c2, d0, d1, d2, e0, e1, e2⟩ := index_facts t
  funext y
  have hy0 : (y 0).val < 1 := (y 0).isLt
  show k0_pay3 (F := Ideal) (iblk m c 0 t) (iblk m c 1 t) (iblk m c 2 t) y
    = headOutput (V m c main_v0) (V m c main_v1) (V m c main_v2) (((cfg0.win 3).blk t).view.emb y)
  refine stored_output (V m c main_v0) (V m c main_v1) (V m c main_v2) (iblk m c 0 t) (iblk m c 1 t) (iblk m c 2 t) y (((cfg0.win 3).blk t).view.emb y)
    (fun d => ?_) (fun j d => ?_) (fun j d => ?_) ?_
  · show V m c main_v0 (((cfg0.win 0).blk t).view.emb (ix3 (0 : Fin 1) (y 1) d)) = V m c main_v0 _
    refine congrArg (V m c main_v0) (funext fun a => Fin.ext ?_)
    match a with
    | ⟨0, _⟩ => show win0_0.index t (0 : Fin 3) * 1 + 1 * 0 = win0_3.index t (0 : Fin 3) * 1 + 1 * (y 0).val; omega
    | ⟨1, _⟩ => show win0_0.index t (1 : Fin 3) * 1024 + 1 * (y 1).val = win0_3.index t (1 : Fin 3) * 1024 + 1 * (y 1).val; omega
    | ⟨2, _⟩ => show win0_0.index t (2 : Fin 3) * 64 + 1 * d.val = d.val; omega
  · show V m c main_v1 (((cfg0.win 1).blk t).view.emb (ix3 (0 : Fin 1) j d)) = V m c main_v1 _
    refine congrArg (V m c main_v1) (funext fun a => Fin.ext ?_)
    match a with
    | ⟨0, _⟩ => show win0_1.index t (0 : Fin 3) * 1 + 1 * 0 = win0_3.index t (0 : Fin 3) * 1 + 1 * (y 0).val; omega
    | ⟨1, _⟩ => show win0_1.index t (1 : Fin 3) * 2048 + 1 * j.val = j.val; omega
    | ⟨2, _⟩ => show win0_1.index t (2 : Fin 3) * 64 + 1 * d.val = d.val; omega
  · show V m c main_v2 (((cfg0.win 2).blk t).view.emb (ix3 (0 : Fin 1) j d)) = V m c main_v2 _
    refine congrArg (V m c main_v2) (funext fun a => Fin.ext ?_)
    match a with
    | ⟨0, _⟩ => show win0_2.index t (0 : Fin 3) * 1 + 1 * 0 = win0_3.index t (0 : Fin 3) * 1 + 1 * (y 0).val; omega
    | ⟨1, _⟩ => show win0_2.index t (1 : Fin 3) * 2048 + 1 * j.val = j.val; omega
    | ⟨2, _⟩ => show win0_2.index t (2 : Fin 3) * 64 + 1 * d.val = d.val; omega
  · show win0_3.index t (2 : Fin 3) * 64 + 1 * (y 2).val = (y 2).val
    omega

/-! ## The two arrays after the region -/

/-- An index of the weights array is in point `t`'s block iff each coordinate is in the block's range on its axis. -/
theorem mem_blk_weights (t : Fin cfg0.N) (i : S32x2048x2048.Idx) :
    i ∈ ((cfg0.win 4).blk t).view.set ↔ ∀ a : Fin 3, win0_4.index t a * S1x1024x2048.size a ≤ (i a).val ∧ (i a).val < win0_4.index t a * S1x1024x2048.size a + S1x1024x2048.size a := by
  show i ∈ ((View.whole main_v3_1).slice (win0_4.rect t)).set ↔ _
  rw [View.set_slice_whole, Rect.mem_set_unit]
  exact Iff.rfl

/-- Every index of the weights array is in the block of the point at its head and its half of the query positions. -/
theorem cover_weights (i : S32x2048x2048.Idx) : ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 2048 := (i 2).isLt
  obtain ⟨t, ht4, ht3⟩ := index_onto ⟨(i 0).val, hi0⟩ ⟨(i 1).val / 1024, by omega⟩
  have q0 : win0_4.index t (0 : Fin 3) = (i 0).val := congrFun ht4 0
  have q1 : win0_4.index t (1 : Fin 3) = (i 1).val / 1024 := congrFun ht4 1
  have q2 : win0_4.index t (2 : Fin 3) = 0 := congrFun ht4 2
  refine ⟨t, flush0_4 t, ?_⟩
  rw [mem_blk_weights]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 2048 ≤ (i 2).val ∧ (i 2).val < win0_4.index t (2 : Fin 3) * 2048 + 2048; omega

/-- An index of the output array is in point `t`'s block iff each coordinate is in the block's range on its axis. -/
theorem mem_blk_output (t : Fin cfg0.N) (i : S32x2048x64.Idx) :
    i ∈ ((cfg0.win 3).blk t).view.set ↔ ∀ a : Fin 3, win0_3.index t a * S1x1024x64.size a ≤ (i a).val ∧ (i a).val < win0_3.index t a * S1x1024x64.size a + S1x1024x64.size a := by
  show i ∈ ((View.whole main_v3_0).slice (win0_3.rect t)).set ↔ _
  rw [View.set_slice_whole, Rect.mem_set_unit]
  exact Iff.rfl

/-- Every index of the output array is in the block of the point at its head and its half of the query positions. -/
theorem cover_output (i : S32x2048x64.Idx) : ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  obtain ⟨t, ht4, ht3⟩ := index_onto ⟨(i 0).val, hi0⟩ ⟨(i 1).val / 1024, by omega⟩
  have q0 : win0_3.index t (0 : Fin 3) = (i 0).val := congrFun ht3 0
  have q1 : win0_3.index t (1 : Fin 3) = (i 1).val / 1024 := congrFun ht3 1
  have q2 : win0_3.index t (2 : Fin 3) = 0 := congrFun ht3 2
  refine ⟨t, flush0_3 t, ?_⟩
  rw [mem_blk_output]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- After the region the weights array is `headWeights` of the regrouped queries and keys. -/
theorem final_weights (c : Dev nD) : (dats m 0 c).arrAt 4 cfg0.N = headWeights (V m c main_v0) (V m c main_v1) :=
  (dats m 0 c).arrAt_eq_of_cover 4 (headWeights (V m c main_v0) (V m c main_v1)) (fun t _ => flushed_weights m c t) cover_weights

/-- After the region the output array is `headOutput` of the regrouped arguments. -/
theorem final_output (c : Dev nD) : (dats m 0 c).arrAt 3 cfg0.N = headOutput (V m c main_v0) (V m c main_v1) (V m c main_v2) :=
  (dats m 0 c).arrAt_eq_of_cover 3 (headOutput (V m c main_v0) (V m c main_v1) (V m c main_v2)) (fun t _ => flushed_output m c t) cover_output

end Cert.KernelIdeal.Arrays

end
-- ==== Proof.HeadSpec.lean ====
/-
  The two results as functions of the three argument arrays, index by index.

  The arguments are `[2, 16, 2048, 64]` arrays of queries, keys and values: batch, head, position, feature.  For batch `b`,
  head `h` and query position `i` the row of scores against the 2048 key positions is the inner product over the 64
  features, times the scale (`headScores`).  The attention weights `[2, 16, 2048, 2048]` at `(b, h, i, j)` are the weight of key
  `j` in that row; the output `[2, 16, 2048, 64]` at `(b, h, i, d)` is the row's weights against feature `d` of the head's value
  rows.
-/
import proofs.«157483_j78683800863253_2_alg».proof.Proof.RowSoftmax
import Idealize.ShloMosaic.Lib.ValueIdx

noncomputable section

namespace Cert.Attention

open Idealize.ShloMosaic Idealize.ShloMosaic.ValueIdx

/-- The shape of the queries, the keys, the values and the output. -/
abbrev SQ : Shape := ⟨4, ![2, 16, 2048, 64]⟩
/-- The shape of the attention weights. -/
abbrev SW : Shape := ⟨4, ![2, 16, 2048, 2048]⟩

/-- The scores of query position `i` of head `(b, h)` against key position `j`. -/
def headScores (q k : SQ.Idx → EReal) (b : Fin 2) (h : Fin 16) (i j : Fin 2048) : EReal :=
  (∑ d : Fin 64, q (ix4 b h i d) * k (ix4 b h j d)) * scale

/-- The attention weights. -/
def weights (q k : SQ.Idx → EReal) : SW.Idx → EReal :=
  fun x => weight (headScores q k (x 0) (x 1) (x 2)) (x 3)

/-- The attention output. -/
def output (q k v : SQ.Idx → EReal) : SQ.Idx → EReal :=
  fun x => mix (headScores q k (x 0) (x 1) (x 2)) (fun j : Fin 2048 => v (ix4 (x 0 : Fin 2) (x 1 : Fin 16) j (x 3 : Fin 64)))

theorem weights_apply (q k : SQ.Idx → EReal) (b : Fin 2) (h : Fin 16) (i j : Fin 2048) :
    weights q k (ix4 b h i j) = weight (headScores q k b h i) j := rfl

theorem output_apply (q k v : SQ.Idx → EReal) (b : Fin 2) (h : Fin 16) (i : Fin 2048) (d : Fin 64) :
    output q k v (ix4 b h i d) = mix (headScores q k b h i) (fun j : Fin 2048 => v (ix4 b h j d)) := rfl

/-- The same row of scores with the scale put on the query's entries first. -/
theorem headScores_eq (q k : SQ.Idx → EReal) (b : Fin 2) (h : Fin 16) (i j : Fin 2048) :
    ∑ d : Fin 64, q (ix4 b h i d) * scale * k (ix4 b h j d) = headScores q k b h i j :=
  scaledScore_eq (fun d => q (ix4 b h i d)) (fun d => k (ix4 b h j d))

end Cert.Attention

end
-- ==== Proof.KernelRun.lean ====
/-
  The kernel's whole run: regroup, the region, regroup back.

  Before the region the three arguments `[2, 16, 2048, 64]` are regrouped as 32 heads `[32, 2048, 64]`: head `16 b + h` is
  batch `b`, head `h`, the same rows in the same order.  After it the two results are regrouped back the same way.  Read at
  `(b, h, i, ·)` the regrouped-back arrays are the region's arrays at head `16 b + h`, whose scores row is the arguments' row
  of batch `b`, head `h`, query `i` with the scale on the query's entries — the same row as with the scale on the inner
  product (`headScores_eq`).  So the run ends with the output at `output` and the weights at `weights` of the arguments.
-/
import proofs.«157483_j78683800863253_2_alg».proof.Proof.KernelArrays
import proofs.«157483_j78683800863253_2_alg».proof.Proof.HeadSpec
import Idealize.ShloMosaic.Lib.StableHlo.Run

noncomputable section

namespace Cert.KernelIdeal.Whole

open Cert.KernelIdeal Cert.KernelIdeal.Gen Cert.KernelIdeal.Arrays Idealize.ShloMosaic Idealize.ShloMosaic.TcCoe Idealize.SL.Sem
open Idealize.ShloMosaic.ValueIdx Cert.Attention
open Idealize.ShloMosaic.Pipeline (Dat)

/-! ## The regroupings at an index -/

/-- Head `16 b + h` of the 32. -/
abbrev group (b : Fin 2) (h : Fin 16) : Fin 32 := ⟨16 * b.val + h.val, by omega⟩

/-- An argument regrouped as 32 heads reads, at `(16 b + h, i, d)`, the argument at `(b, h, i, d)`. -/
theorem regroup_apply (x : S2x16x2048x64.Idx → EReal) (b : Fin 2) (h : Fin 16) (i : Fin 2048) (d : Fin 64) :
    shapeCast S32x2048x64 x shapeCasts_S2x16x2048x64_S32x2048x64 (ix3 (group b h) i d) = x (ix4 b h i d) :=
  shapeCast_apply x _ _ _ (by
    rw [Shape.rowMajor_val_four, Shape.rowMajor_val_three]
    show ((b.val * 16 + h.val) * 2048 + i.val) * 64 + d.val = ((16 * b.val + h.val) * 2048 + i.val) * 64 + d.val
    omega)

/-- The output regrouped back reads, at `(b, h, i, d)`, the 32-head array at `(16 b + h, i, d)`. -/
theorem ungroup_output_apply (A : S32x2048x64.Idx → EReal) (b : Fin 2) (h : Fin 16) (i : Fin 2048) (d : Fin 64) :
    shapeCast S2x16x2048x64 A shapeCasts_S32x2048x64_S2x16x2048x64 (ix4 b h i d) = A (ix3 (group b h) i d) :=
  shapeCast_apply A _ _ _ (by
    rw [Shape.rowMajor_val_four, Shape.rowMajor_val_three]
    show ((16 * b.val + h.val) * 2048 + i.val) * 64 + d.val = ((b.val * 16 + h.val) * 2048 + i.val) * 64 + d.val
    omega)

/-- The weights regrouped back read, at `(b, h, i, j)`, the 32-head array at `(16 b + h, i, j)`. -/
theorem ungroup_weights_apply (A : S32x2048x2048.Idx → EReal) (b : Fin 2) (h : Fin 16) (i j : Fin 2048) :
    shapeCast S2x16x2048x2048 A shapeCasts_S32x2048x2048_S2x16x2048x2048 (ix4 b h i j) = A (ix3 (group b h) i j) :=
  shapeCast_apply A _ _ _ (by
    rw [Shape.rowMajor_val_four, Shape.rowMajor_val_three]
    show ((16 * b.val + h.val) * 2048 + i.val) * 2048 + j.val = ((b.val * 16 + h.val) * 2048 + i.val) * 2048 + j.val
    omega)

/-! ## The two results as functions of the arguments -/

/-- The regrouped arrays' scores row at head `16 b + h` is the arguments' row at `(b, h)`. -/
theorem groupScores_regrouped (q k : S2x16x2048x64.Idx → EReal) (b : Fin 2) (h : Fin 16) (i : Fin 2048) :
    groupScores (shapeCast S32x2048x64 q shapeCasts_S2x16x2048x64_S32x2048x64) (shapeCast S32x2048x64 k shapeCasts_S2x16x2048x64_S32x2048x64)
      (group b h) i = headScores q k b h i := by
  funext j
  unfold groupScores
  simp only [regroup_apply]
  exact headScores_eq q k b h i j

theorem weights_regrouped (q k : S2x16x2048x64.Idx → EReal) :
    shapeCast S2x16x2048x2048
      (headWeights (shapeCast S32x2048x64 q shapeCasts_S2x16x2048x64_S32x2048x64) (shapeCast S32x2048x64 k shapeCasts_S2x16x2048x64_S32x2048x64))
      shapeCasts_S32x2048x2048_S2x16x2048x2048 = weights q k := by
  funext x
  obtain ⟨b, h, i, j, rfl⟩ : ∃ (b : Fin 2) (h : Fin 16) (i j : Fin 2048), x = ix4 b h i j := ⟨x 0, x 1, x 2, x 3, eq_ix4 x⟩
  rw [ungroup_weights_apply, headWeights_apply, weights_apply, groupScores_regrouped]

theorem output_regrouped (q k v : S2x16x2048x64.Idx → EReal) :
    shapeCast S2x16x2048x64
      (headOutput (shapeCast S32x2048x64 q shapeCasts_S2x16x2048x64_S32x2048x64) (shapeCast S32x2048x64 k shapeCasts_S2x16x2048x64_S32x2048x64)
        (shapeCast S32x2048x64 v shapeCasts_S2x16x2048x64_S32x2048x64))
      shapeCasts_S32x2048x64_S2x16x2048x64 = output q k v := by
  funext x
  obtain ⟨b, h, i, d, rfl⟩ : ∃ (b : Fin 2) (h : Fin 16) (i : Fin 2048) (d : Fin 64), x = ix4 b h i d := ⟨x 0, x 1, x 2, x 3, eq_ix4 x⟩
  rw [ungroup_output_apply, headOutput_apply, output_apply, groupScores_regrouped]
  exact congrArg (mix _) (funext fun j => regroup_apply v b h j d)

/-! ## The run -/

variable (m : (ℓ : Loc nD τ sig) → Buf (Elt Ideal) ℓ) (ρ : Dev nD → PrngReg)

/-- The region finds each argument regrouped as 32 heads. -/
theorem entry_queries (c : Dev nD) : (V m c main_v0 : S32x2048x64.Idx → EReal)
    = shapeCast S32x2048x64 (m ((c : Thread nD τ).loc main_arg0) : S2x16x2048x64.Idx → EReal) shapeCasts_S2x16x2048x64_S32x2048x64 := by
  show StableHlo.after hostOps0 (fun b => m (c, b)) (Proc.devRef .tc main_v0) = _
  after_results
  rfl
theorem entry_keys (c : Dev nD) : (V m c main_v1 : S32x2048x64.Idx → EReal)
    = shapeCast S32x2048x64 (m ((c : Thread nD τ).loc main_arg1) : S2x16x2048x64.Idx → EReal) shapeCasts_S2x16x2048x64_S32x2048x64 := by
  show StableHlo.after hostOps0 (fun b => m (c, b)) (Proc.devRef .tc main_v1) = _
  after_results
  rfl
theorem entry_values (c : Dev nD) : (V m c main_v2 : S32x2048x64.Idx → EReal)
    = shapeCast S32x2048x64 (m ((c : Thread nD τ).loc main_arg2) : S2x16x2048x64.Idx → EReal) shapeCasts_S2x16x2048x64_S32x2048x64 := by
  show StableHlo.after hostOps0 (fun b => m (c, b)) (Proc.devRef .tc main_v2) = _
  after_results
  rfl

/-- The first result after the lines that follow the region: the region's output array regrouped back, which is `output`
    of the arguments. -/
theorem tail_output (c : Dev nD) :
    (Pipeline.afterTail₀ cfgs (dats m) 0 (V0 m) [hostOps1] c main_v4 : S2x16x2048x64.Idx → EReal)
      = output (m ((c : Thread nD τ).loc main_arg0)) (m ((c : Thread nD τ).loc main_arg1)) (m ((c : Thread nD τ).loc main_arg2)) := by
  have e : (Pipeline.afterTail₀ cfgs (dats m) 0 (V0 m) [hostOps1] c main_v4 : S2x16x2048x64.Idx → EReal)
      = shapeCast S2x16x2048x64 ((dats m 0 c).arrAt 3 cfg0.N : S32x2048x64.Idx → EReal) shapeCasts_S32x2048x64_S2x16x2048x64 := by
    unfold Pipeline.afterTail₀
    show StableHlo.after hostOps1 _ (Proc.devRef .tc main_v4) = _
    after_results
    exact congrArg (fun A : S32x2048x64.Idx → EReal => shapeCast S2x16x2048x64 A shapeCasts_S32x2048x64_S2x16x2048x64)
      (Pipeline.withArrays_arr spec0 launch0.win.arr_inj c (V0 m c) (fun w => (dats m 0 c).arrAt w cfg0.N) (3 : Fin 5))
  rw [e, final_output, entry_queries, entry_keys, entry_values]
  exact output_regrouped _ _ _

/-- The second result likewise: the region's weights array regrouped back, which is `weights` of the arguments. -/
theorem tail_weights (c : Dev nD) :
    (Pipeline.afterTail₀ cfgs (dats m) 0 (V0 m) [hostOps1] c main_v5 : S2x16x2048x2048.Idx → EReal)
      = weights (m ((c : Thread nD τ).loc main_arg0)) (m ((c : Thread nD τ).loc main_arg1)) := by
  have e : (Pipeline.afterTail₀ cfgs (dats m) 0 (V0 m) [hostOps1] c main_v5 : S2x16x2048x2048.Idx → EReal)
      = shapeCast S2x16x2048x2048 ((dats m 0 c).arrAt 4 cfg0.N : S32x2048x2048.Idx → EReal) shapeCasts_S32x2048x2048_S2x16x2048x2048 := by
    unfold Pipeline.afterTail₀
    show StableHlo.after hostOps1 _ (Proc.devRef .tc main_v5) = _
    after_results
    exact congrArg (fun A : S32x2048x2048.Idx → EReal => shapeCast S2x16x2048x2048 A shapeCasts_S32x2048x2048_S2x16x2048x2048)
      (Pipeline.withArrays_arr spec0 launch0.win.arr_inj c (V0 m c) (fun w => (dats m 0 c).arrAt w cfg0.N) (4 : Fin 5))
  rw [e, final_weights, entry_queries, entry_keys]
  exact weights_regrouped _ _

/-- Every weakly fair execution of the kernel's program ends with the output at `output` and the weights at `weights` of the
    argument arrays, the arguments unchanged. -/
theorem run : θ_run defs (onTc (τ := τ) (main (F := Ideal))) ⟨m, fun _ => 0, ρ⟩ fun r => ∀ c : Dev nD,
      r.2.mem ((c : Thread nD τ).loc main_v4) = output (m ((c : Thread nD τ).loc main_arg0)) (m ((c : Thread nD τ).loc main_arg1)) (m ((c : Thread nD τ).loc main_arg2))
      ∧ r.2.mem ((c : Thread nD τ).loc main_v5) = weights (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨
      ((h c).2 main_v4 (Pipeline.mem_restRefs_of main_v4 (by decide) (by decide))).trans (tail_output m c),
      ((h c).2 main_v5 (Pipeline.mem_restRefs_of main_v5 (by decide) (by decide))).trans (tail_weights m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.ReferenceRows.lean ====
/-
  The reference, read row by row.

  The reference takes the inner products of queries and keys head by head, multiplies by the scale, and applies jnp's
  softmax along the key axis: the maximum of each row (a reduction from -∞, then once more a maximum against -∞, which
  changes nothing), the shifted exponentials, their sum from zero, and the quotient; the output is the weights' product with
  the values, head by head.  Read at an index each stage is the per-row quantity of the same name: the weights are `weights`
  of the arguments and the output is `output` of them.
-/
import proofs.«157483_j78683800863253_2_alg».proof.Proof.Gen.ReferenceIdeal.Read
import proofs.«157483_j78683800863253_2_alg».proof.Proof.HeadSpec
import Idealize.ShloMosaic.Lib.ValueIdx
import Idealize.ShloMosaic.PureOps.Ideal.Laws
import Idealize.ShloMosaic.PureOps.Reduce

noncomputable section

namespace Cert.ReferenceIdeal.Rows

open Cert.ReferenceIdeal Cert.ReferenceIdeal.Gen Cert.ReferenceIdeal.Read Idealize.ShloMosaic Idealize.ShloMosaic.ValueIdx Cert.Attention

variable (x0 x1 x2 : SQ.Idx → EReal)

/-- The scaled scores. -/
theorem v2_apply (b : Fin 2) (h : Fin 16) (i j : Fin 2048) :
    val_main_v2 (F := Ideal) x0 x1 (ix4 b h i j) = headScores x0 x1 b h i j := by
  rw [val_main_v2_apply, val_main_v0_apply, val_main_v1_apply, val_main_cst_apply]
  have el : ∀ k : Fin 64, lidx_main_v0 (ix4 b h i j) k = ix4 b h i k := fun k => funext fun a => Fin.ext (by
    match a with | ⟨0, _⟩ => rfl | ⟨1, _⟩ => rfl | ⟨2, _⟩ => rfl | ⟨3, _⟩ => rfl)
  have er : ∀ k : Fin 64, ridx_main_v0 (ix4 b h i j) k = ix4 b h j k := fun k => funext fun a => Fin.ext (by
    match a with | ⟨0, _⟩ => rfl | ⟨1, _⟩ => rfl | ⟨2, _⟩ => rfl | ⟨3, _⟩ => rfl)
  simp only [el, er]
  rfl

/-- Above `(b, h, i)`, with `k` on the reduced key axis, is `(b, h, i, k)`. -/
theorem lift_keys (hr : S2x16x2048x2048.Reduces [(3 : Fin 4)] S2x16x2048) (b : Fin 2) (h : Fin 16) (i k : Fin 2048) :
    hr.lift (ix3 b h i) k = ix4 b h i k :=
  funext fun c => Fin.ext (by match c with | ⟨0, _⟩ => rfl | ⟨1, _⟩ => rfl | ⟨2, _⟩ => rfl | ⟨3, _⟩ => rfl)

theorem reduces_keys : S2x16x2048x2048.Reduces [(3 : Fin 4)] S2x16x2048 := by decide

/-- The row maxima. -/
theorem v3_apply (b : Fin 2) (h : Fin 16) (i : Fin 2048) :
    val_main_v3 (F := Ideal) x0 x1 (ix3 b h i) = rowMax (headScores x0 x1 b h i) := by
  unfold val_main_v3
  refine (Host.reduce_eq_fold_single (α := EReal) (s := S2x16x2048x2048) (t := S2x16x2048) (a := (3 : Fin 4))
    (FloatOps.maximumf (F := Ideal) (φ := .f32)) (val_main_v2 (F := Ideal) x0 x1) (val_main_cst_0 (F := Ideal))
    reducesTo_S2x16x2048x2048_S2x16x2048_d3 reduces_keys h_S_ (ix3 b h i)).trans ?_
  unfold rowMax
  exact congrArg (Finset.fold max floor · (Finset.univ : Finset (Fin 2048)))
    (funext fun k => (congrArg (val_main_v2 (F := Ideal) x0 x1) (lift_keys reduces_keys b h i k)).trans (v2_apply x0 x1 b h i k))

/-- The maxima once more against -∞. -/
theorem v5_apply (b : Fin 2) (h : Fin 16) (i : Fin 2048) :
    val_main_v5 (F := Ideal) x0 x1 (ix3 b h i) = rowMax (headScores x0 x1 b h i) := by
  rw [val_main_v5_apply, val_main_v4_apply, val_main_cst_1_apply, v3_apply]
  exact max_floor_rowMax _

/-- The maxima broadcast back along the key axis. -/
theorem v7_apply (b : Fin 2) (h : Fin 16) (i j : Fin 2048) :
    val_main_v7 (F := Ideal) x0 x1 (ix4 b h i j) = rowMax (headScores x0 x1 b h i) := by
  rw [val_main_v7_apply, val_main_v6_apply]
  have e : idx_main_v6 (idx_main_v7 (ix4 b h i j)) = ix3 b h i := funext fun a => Fin.ext (by
    match a with | ⟨0, _⟩ => rfl | ⟨1, _⟩ => rfl | ⟨2, _⟩ => rfl)
  rw [e, v5_apply]

/-- The shifted exponentials. -/
theorem v9_apply (b : Fin 2) (h : Fin 16) (i j : Fin 2048) :
    val_main_v9 (F := Ideal) x0 x1 (ix4 b h i j) = rowExp (headScores x0 x1 b h i) j := by
  rw [val_main_v9_apply, val_main_v8_apply, v2_apply, v7_apply]
  rfl

/-- Their sums along the key axis. -/
theorem v10_apply (b : Fin 2) (h : Fin 16) (i : Fin 2048) :
    val_main_v10 (F := Ideal) x0 x1 (ix3 b h i) = ∑ j : Fin 2048, rowExp (headScores x0 x1 b h i) j := by
  rw [val_main_v10_apply, val_main_cst_2_apply]
  have e : ∀ k : Fin 2048, idx_main_v10 (ix3 b h i) k = ix4 b h i k := fun k => funext fun a => Fin.ext (by
    match a with | ⟨0, _⟩ => rfl | ⟨1, _⟩ => rfl | ⟨2, _⟩ => rfl | ⟨3, _⟩ => rfl)
  simp only [e, v9_apply]
  show Ideal.ofBits .f32 0x00000000#32 + _ = _
  rw [Ideal.ofBits_zero_f32, zero_add]

/-- The sums broadcast back along the key axis. -/
theorem v12_apply (b : Fin 2) (h : Fin 16) (i j : Fin 2048) :
    val_main_v12 (F := Ideal) x0 x1 (ix4 b h i j) = ∑ j' : Fin 2048, rowExp (headScores x0 x1 b h i) j' := by
  rw [val_main_v12_apply, val_main_v11_apply]
  have e : idx_main_v11 (idx_main_v12 (ix4 b h i j)) = ix3 b h i := funext fun a => Fin.ext (by
    match a with | ⟨0, _⟩ => rfl | ⟨1, _⟩ => rfl | ⟨2, _⟩ => rfl)
  rw [e, v10_apply]

/-- The weights. -/
theorem v13_apply (b : Fin 2) (h : Fin 16) (i j : Fin 2048) :
    val_main_v13 (F := Ideal) x0 x1 (ix4 b h i j) = weights x0 x1 (ix4 b h i j) := by
  rw [val_main_v13_apply, v9_apply, v12_apply, weights_apply]
  rfl

/-- The reference's second result is the attention weights. -/
theorem v13_eq : val_main_v13 (F := Ideal) x0 x1 = weights x0 x1 := by
  funext x
  obtain ⟨b, h, i, j, rfl⟩ : ∃ (b : Fin 2) (h : Fin 16) (i j : Fin 2048), x = ix4 b h i j := ⟨x 0, x 1, x 2, x 3, eq_ix4 x⟩
  exact v13_apply x0 x1 b h i j

/-- The reference's first result is the attention output. -/
theorem v14_eq : val_main_v14 (F := Ideal) x0 x1 x2 = output x0 x1 x2 := by
  funext x
  obtain ⟨b, h, i, d, rfl⟩ : ∃ (b : Fin 2) (h : Fin 16) (i : Fin 2048) (d : Fin 64), x = ix4 b h i d := ⟨x 0, x 1, x 2, x 3, eq_ix4 x⟩
  rw [val_main_v14_apply, output_apply]
  unfold mix
  refine Finset.sum_congr rfl fun k _ => ?_
  have el : lidx_main_v14 (ix4 b h i d) k = ix4 b h i k := funext fun a => Fin.ext (by
    match a with | ⟨0, _⟩ => rfl | ⟨1, _⟩ => rfl | ⟨2, _⟩ => rfl | ⟨3, _⟩ => rfl)
  have er : ridx_main_v14 (ix4 b h i d) k = ix4 b h k d := funext fun a => Fin.ext (by
    match a with | ⟨0, _⟩ => rfl | ⟨1, _⟩ => rfl | ⟨2, _⟩ => rfl | ⟨3, _⟩ => rfl)
  rw [el, er, v13_apply, weights_apply]

end Cert.ReferenceIdeal.Rows

end
-- ==== Proof.lean ====
/-
  Scaled dot-product attention over `[2, 16, 2048, 64]` queries, keys and values: the kernel against jnp.

  The kernel regroups the arguments as 32 heads and, per head and per half of the 2048 query positions, computes the
  scores `(q · 1/8) · kᵀ`, their softmax along the keys — row maximum, shifted exponentials, their sum, the quotient — and
  the weights' product with the values; it returns the output and the weights, regrouped back.  The reference computes
  `(q · kᵀ) · 1/8` head by head, jnp's softmax, and the product with the values.

  On the extended reals the two are one function of the arguments, index by index.  The only difference is where the scale
  sits: on the query's entries before the inner product, or on the inner product.  The scale is the real `1/8`, and a
  nonnegative real factor moves across a finite sum of extended reals whatever the summands are, so the two rows of scores
  are equal with nothing assumed finite (`Cert.Attention.scaledScore_eq`); the precondition is never opened.  Everything
  after the scores is the same operation on both sides: a maximum from -∞ (the reference takes it once more against -∞,
  which changes nothing), the exponential, a sum from zero, a quotient, a sum of products into zero.

  The modules: `RowSoftmax` (one row: the scale law, the maximum, the weights), `HeadSpec` (the two results as functions of
  the arguments), `LibKeepdims` (a row reduction kept as a column, read at an index), `BlockPayload` (what a grid point
  computes), `KernelArrays` (the 64 blocks tile each result), `KernelRun` (the regroupings and the kernel's run),
  `ReferenceRows` (the reference, stage by stage).  The kernel's programs' side conditions, their frames, the
  reference's run and its stages read at an index are the generated modules'.
-/
import proofs.«157483_j78683800863253_2_alg».proof.Defs
import proofs.«157483_j78683800863253_2_alg».proof.Proof.Gen.Kernel
import proofs.«157483_j78683800863253_2_alg».proof.Proof.Gen.Kernel.Skeleton
import proofs.«157483_j78683800863253_2_alg».proof.Proof.Gen.Kernel.Launch
import proofs.«157483_j78683800863253_2_alg».proof.Proof.Gen.Kernel.Points
import proofs.«157483_j78683800863253_2_alg».proof.Proof.Gen.Kernel.Frame
import proofs.«157483_j78683800863253_2_alg».proof.Proof.Gen.KernelIdeal
import proofs.«157483_j78683800863253_2_alg».proof.Proof.Gen.KernelIdeal.Skeleton
import proofs.«157483_j78683800863253_2_alg».proof.Proof.Gen.KernelIdeal.Launch
import proofs.«157483_j78683800863253_2_alg».proof.Proof.Gen.KernelIdeal.Points
import proofs.«157483_j78683800863253_2_alg».proof.Proof.Gen.KernelIdeal.Frame
import proofs.«157483_j78683800863253_2_alg».proof.Proof.Gen.ReferenceIdeal
import proofs.«157483_j78683800863253_2_alg».proof.Proof.Gen.Pre_finite_inputs
import proofs.«157483_j78683800863253_2_alg».proof.Proof.Gen.ReferenceIdeal.Run
import proofs.«157483_j78683800863253_2_alg».proof.Proof.Gen.ReferenceIdeal.Read
import proofs.«157483_j78683800863253_2_alg».proof.Proof.KernelRun
import proofs.«157483_j78683800863253_2_alg».proof.Proof.ReferenceRows
import Idealize.ShloMosaic.Adequacy
import Idealize.ShloMosaic.Init

noncomputable section

namespace Cert.Proof

open Idealize.ShloMosaic Idealize.SL.Sem Cert.Attention

/-- The kernel as printed runs and leaves its arguments as they were. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- So does the reference: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From arguments that agree, both programs end with the output at `output` and the weights at `weights` of them. -/
theorem algebraic : Cert.algebraic_KernelIdeal_ReferenceIdeal := by
  intro m ρ m' ρ' _ hagree
  refine ⟨fun c => output (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => weights (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨?_, ?_, (h c).2.2⟩)
    (Cert.ReferenceIdeal.Value.run (F := Ideal) m' ρ')
  · refine (h c).1.trans ((Cert.ReferenceIdeal.Read.val_main_v14_eq (F := Ideal) _ _ _).trans
      ((Cert.ReferenceIdeal.Rows.v14_eq _ _ _).trans ?_))
    rw [(hagree c).1, (hagree c).2.1, (hagree c).2.2]
  · refine (h c).2.1.trans ((Cert.ReferenceIdeal.Read.val_main_v13_eq (F := Ideal) _ _).trans
      ((Cert.ReferenceIdeal.Rows.v13_eq _ _).trans ?_))
    rw [(hagree c).1, (hagree c).2.1]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
